-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x16 : Shape := ⟨2, ![1600000, 16]⟩
abbrev S1600000x32 : Shape := ⟨2, ![1600000, 32]⟩
abbrev S2x1600000 : Shape := ⟨2, ![2, 1600000]⟩
abbrev S32x32 : Shape := ⟨2, ![32, 32]⟩
abbrev S32x16 : Shape := ⟨2, ![32, 16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S1600000x32 : S_.BroadcastsInDim S1600000x32 (![] : Fin 0 → Fin S1600000x32.rank)
  reducesTo_S1600000x32_S_d0_1 : S1600000x32.ReducesTo [0, 1] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_

variable [Facts]

def fn_part2 {F : FTy → Type} [FloatOps F] (main_arg8 : FVec F S32x32 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  main_v38

def fn_part1 {F : FTy → Type} [FloatOps F] (main_arg5 : FVec F S32x16 .f32) (main_arg6 : FVec F S32x32 .f32) (main_arg7 : FVec F S32x32 .f32) (main_arg8 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_v33

def fn {F : FTy → Type} [FloatOps F] (main_arg0 : FVec F S100000x32 .f32) (main_arg1 : FVec F S1600000x16 .f32) (main_arg2 : FVec F S1600000x32 .f32) (main_arg3 : IVec S2x1600000 32) (main_arg4 : FVec F S32x32 .f32) (main_arg5 : FVec F S32x16 .f32) (main_arg6 : FVec F S32x32 .f32) (main_arg7 : FVec F S32x32 .f32) (main_arg8 : FVec F S32x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_v13 main_v16
-- ==== Kernel.lean ====
abbrev S100000x32 : Shape := ⟨2, ![100000, 32]⟩
abbrev S1600000x16 : Shape := ⟨2, ![1600000, 16]⟩
abbrev S1600000x32 : Shape := ⟨2, ![1600000, 32]⟩
abbrev S2x1600000 : Shape := ⟨2, ![2, 1600000]⟩
abbrev S32x32 : Shape := ⟨2, ![32, 32]⟩
abbrev S32x16 : Shape := ⟨2, ![32, 16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S16x32 : Shape := ⟨2, ![16, 32]⟩
abbrev S4000x32 : Shape := ⟨2, ![4000, 32]⟩
abbrev S4000x16 : Shape := ⟨2, ![4000, 16]⟩
abbrev S5000x32 : Shape := ⟨2, ![5000, 32]⟩

abbrev nBuf : Space → Nat
  | .hbm => 65
  | .vmem => 21
  | .smem => 0
  | _ => 0

abbrev bufTy : (tb : Table) → Fin (tcTables nBuf tb) → BufTy
  | .hbm, ⟨0, _⟩ => ⟨S100000x32, .f32⟩
  | .hbm, ⟨1, _⟩ => ⟨S1600000x16, .f32⟩
  | .hbm, ⟨2, _⟩ => ⟨S1600000x32, .f32⟩
  | .hbm, ⟨3, _⟩ => ⟨S2x1600000, .i32⟩
  | .hbm, ⟨4, _⟩ => ⟨S32x32, .f32⟩
  | .hbm, ⟨5, _⟩ => ⟨S32x16, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x32, .f32⟩
  | .hbm, ⟨15, _⟩ => ⟨S1600000x1, .i32⟩
  | .hbm, ⟨16, _⟩ => ⟨S100000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S100000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S1600000x32, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S1600000x32, .bf16⟩
  | .hbm, ⟨42, _⟩ => ⟨S32x32, .f32⟩
  | .hbm, ⟨43, _⟩ => ⟨S32x32, .bf16⟩
  | .hbm, ⟨44, _⟩ => ⟨S16x32, .f32⟩
  | .hbm, ⟨45, _⟩ => ⟨S16x32, .bf16⟩
  | .hbm, ⟨46, _⟩ => ⟨S32x32, .f32⟩
  | .hbm, ⟨47, _⟩ => ⟨S32x32, .bf16⟩
  | .hbm, ⟨48, _⟩ => ⟨S32x32, .f32⟩
  | .hbm, ⟨49, _⟩ => ⟨S32x32, .bf16⟩
  | .hbm, ⟨50, _⟩ => ⟨S1600000x32, .f32⟩
  | .hbm, ⟨51, _⟩ => ⟨S1600000x32, .f32⟩
  | .hbm, ⟨52, _⟩ => ⟨S_, .f32⟩
  | .hbm, ⟨53, _⟩ => ⟨S100000x32, .f32⟩
  | .hbm, ⟨54, _⟩ => ⟨S1600000x1, .i32⟩
  | .hbm, ⟨55, _⟩ => ⟨S100000x32, .f32⟩
  | .hbm, ⟨56, _⟩ => ⟨S_, .f32⟩
  | .hbm, ⟨57, _⟩ => ⟨S100000x32, .f32⟩
  | .hbm, ⟨58, _⟩ => ⟨S1600000x1, .i32⟩
  | .hbm, ⟨59, _⟩ => ⟨S100000x32, .f32⟩
  | .hbm, ⟨60, _⟩ => ⟨S100000x32, .f32⟩
  | .hbm, ⟨61, _⟩ => ⟨S100000x32, .bf16⟩
  | .hbm, ⟨62, _⟩ => ⟨S32x32, .f32⟩
  | .hbm, ⟨63, _⟩ => ⟨S32x32, .bf16⟩
  | .hbm, ⟨64, _⟩ => ⟨S100000x32, .f32⟩
  | .local _ .vmem, ⟨0, _⟩ => ⟨S4000x32, .bf16⟩
  | .local _ .vmem, ⟨1, _⟩ => ⟨S4000x32, .bf16⟩
  | .local _ .vmem, ⟨2, _⟩ => ⟨S4000x16, .f32⟩
  | .local _ .vmem, ⟨3, _⟩ => ⟨S4000x16, .f32⟩
  | .local _ .vmem, ⟨4, _⟩ => ⟨S4000x32, .bf16⟩
  | .local _ .vmem, ⟨5, _⟩ => ⟨S4000x32, .bf16⟩
  | .local _ .vmem, ⟨6, _⟩ => ⟨S32x32, .bf16⟩
  | .local _ .vmem, ⟨7, _⟩ => ⟨S16x32, .bf16⟩
  | .local _ .vmem, ⟨8, _⟩ => ⟨S32x32, .bf16⟩
  | .local _ .vmem, ⟨9, _⟩ => ⟨S32x32, .bf16⟩
  | .local _ .vmem, ⟨10, _⟩ => ⟨S4000x32, .f32⟩
  | .local _ .vmem, ⟨11, _⟩ => ⟨S4000x32, .f32⟩
  | .local _ .vmem, ⟨12, _⟩ => ⟨S4000x32, .f32⟩
  | .local _ .vmem, ⟨13, _⟩ => ⟨S4000x32, .f32⟩
  | .local _ .vmem, ⟨14, _⟩ => ⟨S5000x32, .bf16⟩
  | .local _ .vmem, ⟨15, _⟩ => ⟨S5000x32, .bf16⟩
  | .local _ .vmem, ⟨16, _⟩ => ⟨S5000x32, .f32⟩
  | .local _ .vmem, ⟨17, _⟩ => ⟨S5000x32, .f32⟩
  | .local _ .vmem, ⟨18, _⟩ => ⟨S32x32, .bf16⟩
  | .local _ .vmem, ⟨19, _⟩ => ⟨S5000x32, .f32⟩
  | .local _ .vmem, ⟨20, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35_0 : Ref sig .tc := ⟨.hbm, 50, rfl⟩
abbrev main_v35_1 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bitsLt_bf16_f32 : FTy.bits .bf16 < FTy.bits .f32
  transposes_S32x32_S32x32_1_0 : S32x32.Transposes [1, 0] S32x32
  transposes_S32x16_S16x32_1_0 : S32x16.Transposes [1, 0] S16x32
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S4000x16_S4000x16_0_0 : ∀ a, (![0, 0] : Fin 2 → Nat) a + S4000x16.size a ≤ S4000x16.size a
  h_S4000x16 : 0 < S4000x16.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  scatter_S100000x32_S1600000x1_S1600000x32_1_0_0_1_wf : ScatterDims.WF S100000x32 S1600000x1 S1600000x32 [1] [0] [0] 1
  gather_S100000x32_S1600000x1_S1600000x32_1_0_n_n_0_1_132_wf : GatherDims.WF S100000x32 S1600000x1 S1600000x32 [1] [0] [] [0] [] 1 ![1, 32]
  dot_S4000x32_S32x32_S4000x32_1_0_0_1_n_n_wf : DotDims.WF S4000x32 S32x32 S4000x32 [1] [0] [0] [1] [] []
  dot_S4000x16_S16x32_S4000x32_1_0_0_1_n_n_wf : DotDims.WF S4000x16 S16x32 S4000x32 [1] [0] [0] [1] [] []
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S1600000x32.size a
  hwx0_0 : ∀ i : grid0.Coords, EltTy.bits .bf16 = 32 ∨ (Rect.block (s := S1600000x32) S4000x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S1600000x16.size a
  hwx0_1 : ∀ i : grid0.Coords, EltTy.bits .f32 = 32 ∨ (Rect.block (s := S1600000x16) S4000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S1600000x32.size a
  hwx0_2 : ∀ i : grid0.Coords, EltTy.bits .bf16 = 32 ∨ (Rect.block (s := S1600000x32) S4000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .bf16 = 32 ∨ (Rect.block (s := S32x32) S32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .bf16 = 32 ∨ (Rect.block (s := S16x32) S16x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .bf16 = 32 ∨ (Rect.block (s := S32x32) S32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .bf16 = 32 ∨ (Rect.block (s := S32x32) S32x32.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x32.size a ≤ S1600000x32.size a
  hwx0_7 : ∀ i : grid0.Coords, EltTy.bits .f32 = 32 ∨ (Rect.block (s := S1600000x32) S4000x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x32.size a ≤ S1600000x32.size a
  hwx0_8 : ∀ i : grid0.Coords, EltTy.bits .f32 = 32 ∨ (Rect.block (s := S1600000x32) S4000x32.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .bf16 = 32 ∨ (Rect.block (s := S100000x32) S5000x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .bf16 = 32 ∨ (Rect.block (s := S32x32) S32x32.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x16_S16x32_S4000x32_1_0_0_1_n_n : DotDims S4000x16 S16x32 S4000x32 where
  lhsContracting := [1]
  rhsContracting := [0]
  lhsNonContracting := [0]
  rhsNonContracting := [1]
  lhsBatch := []
  rhsBatch := []
  wf := dot_S4000x16_S16x32_S4000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v18) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35_0) S4000x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v35_1) S4000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v43) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000x16 : Shape := ⟨2, ![1600000, 16]⟩
abbrev S1600000x32 : Shape := ⟨2, ![1600000, 32]⟩
abbrev S2x1600000 : Shape := ⟨2, ![2, 1600000]⟩
abbrev S32x32 : Shape := ⟨2, ![32, 32]⟩
abbrev S32x16 : Shape := ⟨2, ![32, 16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S16x32 : Shape := ⟨2, ![16, 32]⟩

abbrev nBuf : Space → Nat
  | .hbm => 65
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000x16, .f32⟩
  | .hbm, ⟨2, _⟩ => ⟨S1600000x32, .f32⟩
  | .hbm, ⟨3, _⟩ => ⟨S2x1600000, .i32⟩
  | .hbm, ⟨4, _⟩ => ⟨S32x32, .f32⟩
  | .hbm, ⟨5, _⟩ => ⟨S32x16, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x32, .f32⟩
  | .hbm, ⟨15, _⟩ => ⟨S1600000x1, .i32⟩
  | .hbm, ⟨16, _⟩ => ⟨S100000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S100000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S32x32, .f32⟩
  | .hbm, ⟨32, _⟩ => ⟨S1600000x32, .f32⟩
  | .hbm, ⟨33, _⟩ => ⟨S16x32, .f32⟩
  | .hbm, ⟨34, _⟩ => ⟨S1600000x32, .f32⟩
  | .hbm, ⟨35, _⟩ => ⟨S1600000x32, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x32, .f32⟩
  | .hbm, ⟨45, _⟩ => ⟨S32x32, .f32⟩
  | .hbm, ⟨46, _⟩ => ⟨S1600000x32, .f32⟩
  | .hbm, ⟨47, _⟩ => ⟨S1600000x32, .f32⟩
  | .hbm, ⟨48, _⟩ => ⟨S_, .f32⟩
  | .hbm, ⟨49, _⟩ => ⟨S1600000x32, .f32⟩
  | .hbm, ⟨50, _⟩ => ⟨S1600000x32, .f32⟩
  | .hbm, ⟨51, _⟩ => ⟨S32x32, .f32⟩
  | .hbm, ⟨52, _⟩ => ⟨S1600000x32, .f32⟩
  | .hbm, ⟨53, _⟩ => ⟨S32x32, .f32⟩
  | .hbm, ⟨54, _⟩ => ⟨S100000x32, .f32⟩
  | .hbm, ⟨55, _⟩ => ⟨S_, .f32⟩
  | .hbm, ⟨56, _⟩ => ⟨S100000x32, .f32⟩
  | .hbm, ⟨57, _⟩ => ⟨S1600000x1, .i32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S1600000x1, .i32⟩
  | .hbm, ⟨62, _⟩ => ⟨S100000x32, .f32⟩
  | .hbm, ⟨63, _⟩ => ⟨S100000x32, .f32⟩
  | .hbm, ⟨64, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  transposes_S32x32_S32x32_1_0 : S32x32.Transposes [1, 0] S32x32
  transposes_S32x16_S16x32_1_0 : S32x16.Transposes [1, 0] S16x32
  bcast_S_S1600000x32 : S_.BroadcastsInDim S1600000x32 (![] : Fin 0 → Fin S1600000x32.rank)
  scatter_S100000x32_S1600000x1_S1600000x32_1_0_0_1_wf : ScatterDims.WF S100000x32 S1600000x1 S1600000x32 [1] [0] [0] 1
  gather_S100000x32_S1600000x1_S1600000x32_1_0_n_n_0_1_132_wf : GatherDims.WF S100000x32 S1600000x1 S1600000x32 [1] [0] [] [0] [] 1 ![1, 32]
  dot_S1600000x32_S32x32_S1600000x32_1_0_0_1_n_n_wf : DotDims.WF S1600000x32 S32x32 S1600000x32 [1] [0] [0] [1] [] []
  dot_S1600000x16_S16x32_S1600000x32_1_0_0_1_n_n_wf : DotDims.WF S1600000x16 S16x32 S1600000x32 [1] [0] [0] [1] [] []
  dot_S100000x32_S32x32_S100000x32_1_0_0_1_n_n_wf : DotDims.WF S100000x32 S32x32 S100000x32 [1] [0] [0] [1] [] []

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KernelRun.lean ====
/-
  The kernel program's run with its final buffer contents named.

  The program is two grids of blocks among three stretches of host operations. Running it from a launch memory
  `m` ends, on every core, with every unscoped buffer at the contents obtained by folding the segments over `m`:
  the host operations before the first grid, the first grid's write-backs, the host operations between the grids, the
  second grid's write-backs. This module states that one fact for all buffers at once; the value modules read the
  two result buffers out of the fold.
-/
import proofs.«115525_j31877247271019_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the
    last boundary's contents (the fold of the four segments over the launch memory). -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the two results and the nine arguments read out of the last boundary's contents. -/
theorem run_named : θ_run defs (onTc (τ := τ) (main (F := F))) ⟨m, fun _ => 0, ρ⟩ (fun r => ∀ c : Dev nD,
      r.2.mem ((c.tc : Thread nD τ).loc main_v35_0) = W4 m ρ c (Proc.devRef .tc main_v35_0)
      ∧ r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v35_0 (by decide)),
       h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_contents m ρ)

end Cert.KernelIdeal.Named

end
-- ==== Proof.Entry.lean ====
import proofs.«115525_j31877247271019_2_alg».proof.Proof.Gen.KernelIdeal.Frame
import proofs.«115525_j31877247271019_2_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! What the first grid finds in its seven input arrays, after the host operations before it: the gathered rows and
    the transposed weight matrices, each as the stage of the reference program that computes the same thing from the
    same arguments (a change of float format is the identity on the extended reals). -/

/-- The first input: for each edge the features of its first endpoint. -/
theorem src_rows (c : Dev nD) :
    (V1 m ρ c main_v18 : S1600000x32.Idx → EReal) = Cert.ReferenceIdeal.Read.val_main_v17 (F := Ideal) (m ((c.tc : Thread nD τ).loc main_arg0)) (m ((c.tc : Thread nD τ).loc main_arg3)) := by
  show StableHlo.after hostOps0 (W0 m ρ c) (Proc.devRef .tc main_v18) = _
  after_results_simp <;> rfl

/-- The second input: the edge features, as launched. -/
theorem edge_rows (c : Dev nD) :
    (V1 m ρ c main_arg1 : S1600000x16.Idx → EReal) = (m ((c.tc : Thread nD τ).loc main_arg1)) := by
  show StableHlo.after hostOps0 (W0 m ρ c) (Proc.devRef .tc main_arg1) = _
  after_results_simp <;> rfl

/-- The third input: for each edge the incident sum at its second endpoint. -/
theorem dst_rows (c : Dev nD) :
    (V1 m ρ c main_v26 : S1600000x32.Idx → EReal) = Cert.ReferenceIdeal.Read.val_main_v29 (F := Ideal) (m ((c.tc : Thread nD τ).loc main_arg2)) (m ((c.tc : Thread nD τ).loc main_arg3)) := by
  show StableHlo.after hostOps0 (W0 m ρ c) (Proc.devRef .tc main_v26) = _
  after_results_simp <;> rfl

/-- The first weight matrix, transposed. -/
theorem w1_t (c : Dev nD) :
    (V1 m ρ c main_v28 : S32x32.Idx → EReal) = Cert.ReferenceIdeal.Read.val_main_v18 (F := Ideal) (m ((c.tc : Thread nD τ).loc main_arg4)) := by
  show StableHlo.after hostOps0 (W0 m ρ c) (Proc.devRef .tc main_v28) = _
  after_results_simp <;> rfl

/-- The second weight matrix, transposed. -/
theorem w2_t (c : Dev nD) :
    (V1 m ρ c main_v30 : S16x32.Idx → EReal) = Cert.ReferenceIdeal.Read.val_main_v20 (F := Ideal) (m ((c.tc : Thread nD τ).loc main_arg5)) := by
  show StableHlo.after hostOps0 (W0 m ρ c) (Proc.devRef .tc main_v30) = _
  after_results_simp <;> rfl

/-- The third weight matrix, transposed. -/
theorem w3_t (c : Dev nD) :
    (V1 m ρ c main_v32 : S32x32.Idx → EReal) = Cert.ReferenceIdeal.Read.val_main_v30 (F := Ideal) (m ((c.tc : Thread nD τ).loc main_arg6)) := by
  show StableHlo.after hostOps0 (W0 m ρ c) (Proc.devRef .tc main_v32) = _
  after_results_simp <;> rfl

/-- The message matrix, transposed. -/
theorem u2_t (c : Dev nD) :
    (V1 m ρ c main_v34 : S32x32.Idx → EReal) = Cert.ReferenceIdeal.Read.val_main_v34 (F := Ideal) (m ((c.tc : Thread nD τ).loc main_arg8)) := by
  show StableHlo.after hostOps0 (W0 m ρ c) (Proc.devRef .tc main_v34) = _
  after_results_simp <;> rfl

end Cert.KernelIdeal.Entry

end
-- ==== Proof.Formula.lean ====
/-
  One layer of message passing on a graph, entry by entry on the extended reals.

  There are 1,600,000 edges and 100,000 nodes. For edge `r` let `x r` be the features of its first endpoint
  (32 numbers), `e r` its own features (16 numbers) and `h r` the sum, over the edges touching its second endpoint,
  of the edges' old hidden states (32 numbers). With the weight matrices already transposed (`a₁`, `a₃`, `b` of size
  32 × 32 and `a₂` of size 16 × 32):

  * the edge's new hidden state is, at column `q`,
        max ((∑ₖ x(r,k) · a₁(k,q) + ∑ₖ e(r,k) · a₂(k,q)) + ∑ₖ h(r,k) · a₃(k,q)) 0;
  * the message it sends is that row times a fourth matrix: ∑ₖ hidden(r,k) · b(k,q);
  * a node's new hidden state is its features times a matrix plus the sum `s` of the messages of the edges touching
    it: ∑ₖ f(r,k) · b(k,q) + s(r,q).

  The three sums are added in this order and nothing is moved across a sum, so no finiteness is needed anywhere.
-/
import Idealize.ShloMosaic.Lib.ValueIdx
import Idealize.ShloMosaic.PureOps.Ideal

noncomputable section

namespace Cert.Formula

open Idealize.ShloMosaic Idealize.ShloMosaic.ValueIdx

/-- An edge's new hidden state at column `q`. -/
def edgeHidden (x : (⟨2, ![1600000, 32]⟩ : Shape).Idx → EReal) (e : (⟨2, ![1600000, 16]⟩ : Shape).Idx → EReal)
    (h : (⟨2, ![1600000, 32]⟩ : Shape).Idx → EReal) (a1 : (⟨2, ![32, 32]⟩ : Shape).Idx → EReal)
    (a2 : (⟨2, ![16, 32]⟩ : Shape).Idx → EReal) (a3 : (⟨2, ![32, 32]⟩ : Shape).Idx → EReal)
    (r : Fin 1600000) (q : Fin 32) : EReal :=
  max ((∑ c : Fin 32, x (ix2 r c) * a1 (ix2 c q) + ∑ c : Fin 16, e (ix2 r c) * a2 (ix2 c q))
    + ∑ c : Fin 32, h (ix2 r c) * a3 (ix2 c q)) 0

/-- The message an edge sends, at column `q`: its new hidden state against column `q` of `b`. -/
def edgeMessage (x : (⟨2, ![1600000, 32]⟩ : Shape).Idx → EReal) (e : (⟨2, ![1600000, 16]⟩ : Shape).Idx → EReal)
    (h : (⟨2, ![1600000, 32]⟩ : Shape).Idx → EReal) (a1 : (⟨2, ![32, 32]⟩ : Shape).Idx → EReal)
    (a2 : (⟨2, ![16, 32]⟩ : Shape).Idx → EReal) (a3 : (⟨2, ![32, 32]⟩ : Shape).Idx → EReal)
    (b : (⟨2, ![32, 32]⟩ : Shape).Idx → EReal) (r : Fin 1600000) (q : Fin 32) : EReal :=
  ∑ c : Fin 32, edgeHidden x e h a1 a2 a3 r c * b (ix2 c q)

/-- A node's new hidden state at column `q`. -/
def nodeHidden (f : (⟨2, ![100000, 32]⟩ : Shape).Idx → EReal) (s : (⟨2, ![100000, 32]⟩ : Shape).Idx → EReal)
    (b : (⟨2, ![32, 32]⟩ : Shape).Idx → EReal) (r : Fin 100000) (q : Fin 32) : EReal :=
  ∑ c : Fin 32, f (ix2 r c) * b (ix2 c q) + s (ix2 r q)

/-- The three as whole arrays. -/
def edgeHiddenArr (x : (⟨2, ![1600000, 32]⟩ : Shape).Idx → EReal) (e : (⟨2, ![1600000, 16]⟩ : Shape).Idx → EReal)
    (h : (⟨2, ![1600000, 32]⟩ : Shape).Idx → EReal) (a1 : (⟨2, ![32, 32]⟩ : Shape).Idx → EReal)
    (a2 : (⟨2, ![16, 32]⟩ : Shape).Idx → EReal) (a3 : (⟨2, ![32, 32]⟩ : Shape).Idx → EReal) :
    (⟨2, ![1600000, 32]⟩ : Shape).Idx → EReal :=
  fun i => edgeHidden x e h a1 a2 a3 ⟨(i 0).val, idx2_lt0 i⟩ ⟨(i 1).val, idx2_lt1 i⟩

def edgeMessageArr (x : (⟨2, ![1600000, 32]⟩ : Shape).Idx → EReal) (e : (⟨2, ![1600000, 16]⟩ : Shape).Idx → EReal)
    (h : (⟨2, ![1600000, 32]⟩ : Shape).Idx → EReal) (a1 : (⟨2, ![32, 32]⟩ : Shape).Idx → EReal)
    (a2 : (⟨2, ![16, 32]⟩ : Shape).Idx → EReal) (a3 : (⟨2, ![32, 32]⟩ : Shape).Idx → EReal)
    (b : (⟨2, ![32, 32]⟩ : Shape).Idx → EReal) : (⟨2, ![1600000, 32]⟩ : Shape).Idx → EReal :=
  fun i => edgeMessage x e h a1 a2 a3 b ⟨(i 0).val, idx2_lt0 i⟩ ⟨(i 1).val, idx2_lt1 i⟩

def nodeHiddenArr (f : (⟨2, ![100000, 32]⟩ : Shape).Idx → EReal) (s : (⟨2, ![100000, 32]⟩ : Shape).Idx → EReal)
    (b : (⟨2, ![32, 32]⟩ : Shape).Idx → EReal) : (⟨2, ![100000, 32]⟩ : Shape).Idx → EReal :=
  fun i => nodeHidden f s b ⟨(i 0).val, idx2_lt0 i⟩ ⟨(i 1).val, idx2_lt1 i⟩

theorem edgeHiddenArr_ix2 (x : (⟨2, ![1600000, 32]⟩ : Shape).Idx → EReal) (e : (⟨2, ![1600000, 16]⟩ : Shape).Idx → EReal)
    (h : (⟨2, ![1600000, 32]⟩ : Shape).Idx → EReal) (a1 : (⟨2, ![32, 32]⟩ : Shape).Idx → EReal)
    (a2 : (⟨2, ![16, 32]⟩ : Shape).Idx → EReal) (a3 : (⟨2, ![32, 32]⟩ : Shape).Idx → EReal) (r : Fin 1600000) (q : Fin 32) :
    edgeHiddenArr x e h a1 a2 a3 (ix2 r q) = edgeHidden x e h a1 a2 a3 r q := rfl

theorem edgeMessageArr_ix2 (x : (⟨2, ![1600000, 32]⟩ : Shape).Idx → EReal) (e : (⟨2, ![1600000, 16]⟩ : Shape).Idx → EReal)
    (h : (⟨2, ![1600000, 32]⟩ : Shape).Idx → EReal) (a1 : (⟨2, ![32, 32]⟩ : Shape).Idx → EReal)
    (a2 : (⟨2, ![16, 32]⟩ : Shape).Idx → EReal) (a3 : (⟨2, ![32, 32]⟩ : Shape).Idx → EReal)
    (b : (⟨2, ![32, 32]⟩ : Shape).Idx → EReal) (r : Fin 1600000) (q : Fin 32) :
    edgeMessageArr x e h a1 a2 a3 b (ix2 r q) = edgeMessage x e h a1 a2 a3 b r q := rfl

theorem nodeHiddenArr_ix2 (f : (⟨2, ![100000, 32]⟩ : Shape).Idx → EReal) (s : (⟨2, ![100000, 32]⟩ : Shape).Idx → EReal)
    (b : (⟨2, ![32, 32]⟩ : Shape).Idx → EReal) (r : Fin 100000) (q : Fin 32) :
    nodeHiddenArr f s b (ix2 r q) = nodeHidden f s b r q := rfl

end Cert.Formula

end
-- ==== Proof.LibRows.lean ====
/-
  Rows of a matrix reduced along their length, and the matrix product, read one entry at a time on the extended
  reals.

  * Summing, or taking the maximum, along the rows of an `a × s` matrix leaves a length-`a` vector whose entry `r`
    is the sum (the maximum, folded from the starting value) of row `r`.
  * The product of an `m × k` matrix with a `k × n` matrix, accumulated into zero, has at `(p, q)` the sum over
    `c` of `l (p, c) · r (c, q)`: a contraction of the left operand's second axis with the right operand's first.
-/
import Idealize.ShloMosaic.Lib.ValueIdx
import Idealize.ShloMosaic.Lib.Pipeline.Value
import Idealize.ShloMosaic.PureOps.Ideal.Laws

namespace Cert.LibRows

open Idealize.ShloMosaic Idealize.ShloMosaic.ValueIdx

/-- The index a row reduction reads: the kept row coordinate, then the position along the row. -/
theorem lift_last2 {A S : ℕ} (h : (⟨2, ![A, S]⟩ : Shape).Reduces [1] ⟨1, ![A]⟩) (r : Fin A) (k : Fin S) :
    h.lift (ix1 r) k = ix2 r k :=
  funext fun a => Fin.ext (by
    match a with
    | ⟨0, _⟩ => rfl
    | ⟨1, _⟩ => rfl)

/-- The sum along the rows, at `r`: the sum of row `r`. -/
theorem sum_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.add.neutral φ hφ)
    (r : Fin A) :
    multiReduction .add [1] ⟨1, ![A]⟩ x acc h hφ hacc (ix1 r) = ∑ k : Fin S, x (ix2 r k) :=
  (Ideal.multiReduction_add_single x acc h hφ hacc (ix1 r)).trans
    (Finset.sum_congr rfl fun k _ => congrArg x (lift_last2 h r k))

/-- The maximum along the rows, at `r`: the maximum of row `r`, folded from the starting value. -/
theorem max_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.maximumf.neutral φ hφ)
    (r : Fin A) :
    multiReduction .maximumf [1] ⟨1, ![A]⟩ x acc h hφ hacc (ix1 r)
      = (Finset.univ : Finset (Fin S)).fold max (Ideal.ofBits φ acc) (fun k => x (ix2 r k)) :=
  (Ideal.multiReduction_maximumf_single x acc h hφ hacc (ix1 r)).trans
    (congrArg ((Finset.univ : Finset (Fin S)).fold max (Ideal.ofBits φ acc)) (funext fun k => congrArg x (lift_last2 h r k)))

/-- The matrix product into a zero accumulator, at `(p, q)`: the sum over `c` of `l (p, c) · r (c, q)`. The four
    hypotheses say which coordinate of the output index or of the contraction index each operand coordinate is. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) := by
  refine (Ideal.matmul_constant_zero_apply D none l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibRows
-- ==== Proof.Payload.lean ====
/-
  The two kernel bodies' arithmetic, entry by entry, on the extended reals.

  The edge body takes a block of 4000 edges: the gathered source-node features `x` (4000 × 32), the edge features
  `e` (4000 × 16), the gathered incident sums `h` (4000 × 32), and the four transposed weight matrices. Its first
  store is, at row `p` and column `q`,

      max ((∑ₖ x(p,k) · w₁ᵀ(k,q) + ∑ₖ e(p,k) · w₂ᵀ(k,q)) + ∑ₖ h(p,k) · w₃ᵀ(k,q)) 0

  and its second store is the product of that block with u₂ᵀ: ∑ₖ (first store)(p,k) · u₂ᵀ(k,q). A change of float
  format is the identity on the extended reals, and a product accumulated into zero is the plain sum.

  The node body takes 5000 nodes: at (p, q) it is ∑ₖ f(p,k) · u₁ᵀ(k,q) + s(p,q).
-/
import proofs.«115525_j31877247271019_2_alg».proof.Proof.Gen.KernelIdeal.Skeleton
import proofs.«115525_j31877247271019_2_alg».proof.Proof.LibRows
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- A 4000 × 32 block times a 32 × 32 matrix, accumulated into zero, at (p, q). -/
theorem prod_4000x32 {φ₁ φ₂ : FTy} (l : FVec Ideal S4000x32 φ₁) (r : FVec Ideal S32x32 φ₂) (p : Fin 4000) (q : Fin 32) :
    matmul dot_S4000x32_S32x32_S4000x32_1_0_0_1_n_n none l r (constant S4000x32 .f32 0x00000000#32) (ix2 p q)
      = ∑ c : Fin 32, l (ix2 p c) * r (ix2 c q) :=
  Cert.LibRows.matmul_zero_apply (M := 4000) (K := 32) (N := 32) dot_S4000x32_S32x32_S4000x32_1_0_0_1_n_n rfl rfl
    (fun i k => by
      unfold DotDims.lhsIdx
      rw [dif_neg (show ¬(0 : Fin S4000x32.rank) ∈ dot_S4000x32_S32x32_S4000x32_1_0_0_1_n_n.lhsBatch by decide),
        dif_pos (show (0 : Fin S4000x32.rank) ∈ dot_S4000x32_S32x32_S4000x32_1_0_0_1_n_n.lhsNonContracting by decide)]
      rfl)
    (fun i k => dot_S4000x32_S32x32_S4000x32_1_0_0_1_n_n.lhsIdx_val_of_single rfl i k)
    (fun i k => dot_S4000x32_S32x32_S4000x32_1_0_0_1_n_n.rhsIdx_val_of_single rfl i k)
    (fun i k => by
      unfold DotDims.rhsIdx
      rw [dif_neg (show ¬(1 : Fin S32x32.rank) ∈ dot_S4000x32_S32x32_S4000x32_1_0_0_1_n_n.rhsBatch by decide),
        dif_pos (show (1 : Fin S32x32.rank) ∈ dot_S4000x32_S32x32_S4000x32_1_0_0_1_n_n.rhsNonContracting by decide)]
      rfl)
    l r p q

/-- A 4000 × 16 block times a 16 × 32 matrix, accumulated into zero, at (p, q). -/
theorem prod_4000x16 {φ₁ φ₂ : FTy} (l : FVec Ideal S4000x16 φ₁) (r : FVec Ideal S16x32 φ₂) (p : Fin 4000) (q : Fin 32) :
    matmul dot_S4000x16_S16x32_S4000x32_1_0_0_1_n_n none l r (constant S4000x32 .f32 0x00000000#32) (ix2 p q)
      = ∑ c : Fin 16, l (ix2 p c) * r (ix2 c q) :=
  Cert.LibRows.matmul_zero_apply (M := 4000) (K := 16) (N := 32) dot_S4000x16_S16x32_S4000x32_1_0_0_1_n_n rfl rfl
    (fun i k => by
      unfold DotDims.lhsIdx
      rw [dif_neg (show ¬(0 : Fin S4000x16.rank) ∈ dot_S4000x16_S16x32_S4000x32_1_0_0_1_n_n.lhsBatch by decide),
        dif_pos (show (0 : Fin S4000x16.rank) ∈ dot_S4000x16_S16x32_S4000x32_1_0_0_1_n_n.lhsNonContracting by decide)]
      rfl)
    (fun i k => dot_S4000x16_S16x32_S4000x32_1_0_0_1_n_n.lhsIdx_val_of_single rfl i k)
    (fun i k => dot_S4000x16_S16x32_S4000x32_1_0_0_1_n_n.rhsIdx_val_of_single rfl i k)
    (fun i k => by
      unfold DotDims.rhsIdx
      rw [dif_neg (show ¬(1 : Fin S16x32.rank) ∈ dot_S4000x16_S16x32_S4000x32_1_0_0_1_n_n.rhsBatch by decide),
        dif_pos (show (1 : Fin S16x32.rank) ∈ dot_S4000x16_S16x32_S4000x32_1_0_0_1_n_n.rhsNonContracting by decide)]
      rfl)
    l r p q

/-- A 5000 × 32 block times a 32 × 32 matrix, accumulated into zero, at (p, q). -/
theorem prod_5000x32 {φ₁ φ₂ : FTy} (l : FVec Ideal S5000x32 φ₁) (r : FVec Ideal S32x32 φ₂) (p : Fin 5000) (q : Fin 32) :
    matmul dot_S5000x32_S32x32_S5000x32_1_0_0_1_n_n none l r (constant S5000x32 .f32 0x00000000#32) (ix2 p q)
      = ∑ c : Fin 32, l (ix2 p c) * r (ix2 c q) :=
  Cert.LibRows.matmul_zero_apply (M := 5000) (K := 32) (N := 32) dot_S5000x32_S32x32_S5000x32_1_0_0_1_n_n rfl rfl
    (fun i k => by
      unfold DotDims.lhsIdx
      rw [dif_neg (show ¬(0 : Fin S5000x32.rank) ∈ dot_S5000x32_S32x32_S5000x32_1_0_0_1_n_n.lhsBatch by decide),
        dif_pos (show (0 : Fin S5000x32.rank) ∈ dot_S5000x32_S32x32_S5000x32_1_0_0_1_n_n.lhsNonContracting by decide)]
      rfl)
    (fun i k => dot_S5000x32_S32x32_S5000x32_1_0_0_1_n_n.lhsIdx_val_of_single rfl i k)
    (fun i k => dot_S5000x32_S32x32_S5000x32_1_0_0_1_n_n.rhsIdx_val_of_single rfl i k)
    (fun i k => by
      unfold DotDims.rhsIdx
      rw [dif_neg (show ¬(1 : Fin S32x32.rank) ∈ dot_S5000x32_S32x32_S5000x32_1_0_0_1_n_n.rhsBatch by decide),
        dif_pos (show (1 : Fin S32x32.rank) ∈ dot_S5000x32_S32x32_S5000x32_1_0_0_1_n_n.rhsNonContracting by decide)]
      rfl)
    l r p q

/-- The zero word of the single-precision format is the real zero. -/
theorem zero_word : Ideal.ofBits .f32 0x00000000#32 = 0 := Ideal.ofBits_zero_f32

/-- The edge body's first store at (p, q): the three products added in order, clamped below at zero. -/
theorem edge_hidden_apply (x : Vec Ideal S4000x32 .bf16) (e : Vec Ideal S4000x16 .f32) (h : Vec Ideal S4000x32 .bf16)
    (w1 : Vec Ideal S32x32 .bf16) (w2 : Vec Ideal S16x32 .bf16) (w3 : Vec Ideal S32x32 .bf16) (p : Fin 4000) (q : Fin 32) :
    k0_pay1 (F := Ideal) x e h w1 w2 w3 (ix2 p q)
      = max ((∑ c : Fin 32, x (ix2 p c) * w1 (ix2 c q) + ∑ c : Fin 16, e (ix2 p c) * w2 (ix2 c q))
          + ∑ c : Fin 32, h (ix2 p c) * w3 (ix2 c q)) 0 := by
  unfold k0_pay1
  simp only [shapeCast_self]
  rw [maximumf_apply, addf_apply, addf_apply, prod_4000x32, prod_4000x16, prod_4000x32]
  simp only [truncf_apply]
  exact congrArg (max _) zero_word

/-- The edge body's second store at (p, q): the first store's row `p` against column `q` of the last matrix. -/
theorem edge_message_apply (x : Vec Ideal S4000x32 .bf16) (e : Vec Ideal S4000x16 .f32) (h : Vec Ideal S4000x32 .bf16)
    (w1 : Vec Ideal S32x32 .bf16) (w2 : Vec Ideal S16x32 .bf16) (w3 : Vec Ideal S32x32 .bf16) (u2 : Vec Ideal S32x32 .bf16)
    (p : Fin 4000) (q : Fin 32) :
    k0_pay2 (F := Ideal) x e h w1 w2 w3 u2 (ix2 p q)
      = ∑ c : Fin 32, k0_pay1 (F := Ideal) x e h w1 w2 w3 (ix2 p c) * u2 (ix2 c q) := by
  unfold k0_pay2
  simp only [shapeCast_self]
  rw [prod_4000x32]
  simp only [truncf_apply]

/-- The node body's store at (p, q): row `p` of the features against column `q` of the matrix, plus the incident sum. -/
theorem node_hidden_apply (f : Vec Ideal S5000x32 .bf16) (s : Vec Ideal S5000x32 .f32) (u1 : Vec Ideal S32x32 .bf16)
    (p : Fin 5000) (q : Fin 32) :
    k1_pay1 (F := Ideal) f s u1 (ix2 p q) = ∑ c : Fin 32, f (ix2 p c) * u1 (ix2 c q) + s (ix2 p q) := by
  unfold k1_pay1
  simp only [shapeCast_self]
  rw [addf_apply, prod_5000x32]

end Cert.KernelIdeal.Payload

end
-- ==== Proof.EdgeBlocks.lean ====
/-
  The first grid, from blocks to whole arrays.

  The grid has 400 points; point `t` takes rows `4000·t … 4000·t + 3999` of the three edge-indexed inputs and the
  whole of each weight matrix, and writes the same rows of the two outputs. So the row `p` of a block at point `t` is
  the row `4000·t + p` of the array, the blocks tile the outputs, and each output ends as the formula of the input
  arrays, entry by entry: the new edge states and the messages.
-/
import proofs.«115525_j31877247271019_2_alg».proof.Proof.Gen.KernelIdeal.Frame
import proofs.«115525_j31877247271019_2_alg».proof.Proof.Formula
import proofs.«115525_j31877247271019_2_alg».proof.Proof.Payload
import Idealize.ShloMosaic.Lib.ValueIdx
import Idealize.ShloMosaic.Lib.Pipeline.Value

set_option maxRecDepth 16384

noncomputable section

namespace Cert.KernelIdeal.EdgeBlocks

open Cert.KernelIdeal Cert.KernelIdeal.Gen Cert.Formula Cert.KernelIdeal.Payload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Which block each window takes at point `t`: block row `t` of the edge-indexed arrays, the one block of each matrix. -/
theorem block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem points : cfg0.N = 400 := N_0

/-- Row `p` of the first input's block at point `t` is row `4000·t + p` of its array. -/
theorem src_block (c : Dev nD) (t : Fin cfg0.N) (p : Fin 4000) (k : Fin 32) (r : Fin 1600000) (hr : r.val = 4000 * t.val + p.val) :
    (iblk0 V c 0 t : Vec Ideal S4000x32 .bf16) (ix2 p k) = (V c main_v18 : S1600000x32.Idx → EReal) (ix2 r k) := by
  obtain ⟨e0, e1, -⟩ := block_of_point t
  unfold iblk0
  rw [View.read_apply]
  show (V c main_v18 : S1600000x32.Idx → EReal) _ = V c main_v18 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 32 + 1 * k.val = k.val; rw [e1]; omega

/-- Row `p` of the second input's block at point `t` is row `4000·t + p` of its array. -/
theorem edge_block (c : Dev nD) (t : Fin cfg0.N) (p : Fin 4000) (k : Fin 16) (r : Fin 1600000) (hr : r.val = 4000 * t.val + p.val) :
    (iblk0 V c 1 t : Vec Ideal S4000x16 .f32) (ix2 p k) = (V c main_arg1 : S1600000x16.Idx → EReal) (ix2 r k) := by
  obtain ⟨-, -, e0, e1, -⟩ := block_of_point t
  unfold iblk0
  rw [View.read_apply]
  show (V c main_arg1 : S1600000x16.Idx → EReal) _ = V c main_arg1 _
  congr 1
  funext a
  apply Fin.ext
  match a with
  | ⟨0, _⟩ => show win0_1.index t (0 : Fin 2) * 4000 + 1 * p.val = r.val; rw [e0, hr]; omega
  | ⟨1, _⟩ => show win0_1.index t (1 : Fin 2) * 16 + 1 * k.val = k.val; rw [e1]; omega

/-- Row `p` of the third input's block at point `t` is row `4000·t + p` of its array. -/
theorem dst_block (c : Dev nD) (t : Fin cfg0.N) (p : Fin 4000) (k : Fin 32) (r : Fin 1600000) (hr : r.val = 4000 * t.val + p.val) :
    (iblk0 V c 2 t : Vec Ideal S4000x32 .bf16) (ix2 p k) = (V c main_v26 : S1600000x32.Idx → EReal) (ix2 r k) := by
  obtain ⟨-, -, -, -, e0, e1, -⟩ := block_of_point t
  unfold iblk0
  rw [View.read_apply]
  show (V c main_v26 : S1600000x32.Idx → EReal) _ = V c main_v26 _
  congr 1
  funext a
  apply Fin.ext
  match a with
  | ⟨0, _⟩ => show win0_2.index t (0 : Fin 2) * 4000 + 1 * p.val = r.val; rw [e0, hr]; omega
  | ⟨1, _⟩ => show win0_2.index t (1 : Fin 2) * 32 + 1 * k.val = k.val; rw [e1]; omega

/-- The block of the first weight matrix is the matrix. -/
theorem w1_block (c : Dev nD) (t : Fin cfg0.N) (k q : Fin 32) :
    (iblk0 V c 3 t : Vec Ideal S32x32 .bf16) (ix2 k q) = (V c main_v28 : S32x32.Idx → EReal) (ix2 k q) := by
  obtain ⟨-, -, -, -, -, -, e0, e1, -⟩ := block_of_point t
  unfold iblk0
  rw [View.read_apply]
  show (V c main_v28 : S32x32.Idx → EReal) _ = V c main_v28 _
  congr 1
  funext a
  apply Fin.ext
  match a with
  | ⟨0, _⟩ => show win0_3.index t (0 : Fin 2) * 32 + 1 * k.val = k.val; rw [e0]; omega
  | ⟨1, _⟩ => show win0_3.index t (1 : Fin 2) * 32 + 1 * q.val = q.val; rw [e1]; omega

/-- The block of the second weight matrix is the matrix. -/
theorem w2_block (c : Dev nD) (t : Fin cfg0.N) (k : Fin 16) (q : Fin 32) :
    (iblk0 V c 4 t : Vec Ideal S16x32 .bf16) (ix2 k q) = (V c main_v30 : S16x32.Idx → EReal) (ix2 k q) := by
  obtain ⟨-, -, -, -, -, -, -, -, e0, e1, -⟩ := block_of_point t
  unfold iblk0
  rw [View.read_apply]
  show (V c main_v30 : S16x32.Idx → EReal) _ = V c main_v30 _
  congr 1
  funext a
  apply Fin.ext
  match a with
  | ⟨0, _⟩ => show win0_4.index t (0 : Fin 2) * 16 + 1 * k.val = k.val; rw [e0]; omega
  | ⟨1, _⟩ => show win0_4.index t (1 : Fin 2) * 32 + 1 * q.val = q.val; rw [e1]; omega

/-- The block of the third weight matrix is the matrix. -/
theorem w3_block (c : Dev nD) (t : Fin cfg0.N) (k q : Fin 32) :
    (iblk0 V c 5 t : Vec Ideal S32x32 .bf16) (ix2 k q) = (V c main_v32 : S32x32.Idx → EReal) (ix2 k q) := by
  obtain ⟨-, -, -, -, -, -, -, -, -, -, e0, e1, -⟩ := block_of_point t
  unfold iblk0
  rw [View.read_apply]
  show (V c main_v32 : S32x32.Idx → EReal) _ = V c main_v32 _
  congr 1
  funext a
  apply Fin.ext
  match a with
  | ⟨0, _⟩ => show win0_5.index t (0 : Fin 2) * 32 + 1 * k.val = k.val; rw [e0]; omega
  | ⟨1, _⟩ => show win0_5.index t (1 : Fin 2) * 32 + 1 * q.val = q.val; rw [e1]; omega

/-- The block of the message matrix is the matrix. -/
theorem u2_block (c : Dev nD) (t : Fin cfg0.N) (k q : Fin 32) :
    (iblk0 V c 6 t : Vec Ideal S32x32 .bf16) (ix2 k q) = (V c main_v34 : S32x32.Idx → EReal) (ix2 k q) := by
  obtain ⟨-, -, -, -, -, -, -, -, -, -, -, -, e0, e1, -⟩ := block_of_point t
  unfold iblk0
  rw [View.read_apply]
  show (V c main_v34 : S32x32.Idx → EReal) _ = V c main_v34 _
  congr 1
  funext a
  apply Fin.ext
  match a with
  | ⟨0, _⟩ => show win0_6.index t (0 : Fin 2) * 32 + 1 * k.val = k.val; rw [e0]; omega
  | ⟨1, _⟩ => show win0_6.index t (1 : Fin 2) * 32 + 1 * q.val = q.val; rw [e1]; omega

/-- The body's first store on blocks that are rows `4000·t + p` of arrays: the formula at row `4000·t + p`. -/
theorem hidden_on_rows (x : Vec Ideal S4000x32 .bf16) (e : Vec Ideal S4000x16 .f32) (h : Vec Ideal S4000x32 .bf16)
    (w1 : Vec Ideal S32x32 .bf16) (w2 : Vec Ideal S16x32 .bf16) (w3 : Vec Ideal S32x32 .bf16)
    (X : S1600000x32.Idx → EReal) (E : S1600000x16.Idx → EReal) (H : S1600000x32.Idx → EReal)
    (A1 : S32x32.Idx → EReal) (A2 : S16x32.Idx → EReal) (A3 : S32x32.Idx → EReal)
    (p : Fin 4000) (r : Fin 1600000)
    (hx : ∀ k : Fin 32, x (ix2 p k) = X (ix2 r k)) (he : ∀ k : Fin 16, e (ix2 p k) = E (ix2 r k))
    (hh : ∀ k : Fin 32, h (ix2 p k) = H (ix2 r k))
    (h1 : ∀ k q : Fin 32, w1 (ix2 k q) = A1 (ix2 k q)) (h2 : ∀ (k : Fin 16) (q : Fin 32), w2 (ix2 k q) = A2 (ix2 k q))
    (h3 : ∀ k q : Fin 32, w3 (ix2 k q) = A3 (ix2 k q)) (q : Fin 32) :
    k0_pay1 (F := Ideal) x e h w1 w2 w3 (ix2 p q) = edgeHidden X E H A1 A2 A3 r q := by
  rw [edge_hidden_apply]
  unfold edgeHidden
  simp only [hx, he, hh, h1, h2, h3]

/-- The body's second store on such blocks: the message formula at row `4000·t + p`. -/
theorem message_on_rows (x : Vec Ideal S4000x32 .bf16) (e : Vec Ideal S4000x16 .f32) (h : Vec Ideal S4000x32 .bf16)
    (w1 : Vec Ideal S32x32 .bf16) (w2 : Vec Ideal S16x32 .bf16) (w3 : Vec Ideal S32x32 .bf16) (u2 : Vec Ideal S32x32 .bf16)
    (X : S1600000x32.Idx → EReal) (E : S1600000x16.Idx → EReal) (H : S1600000x32.Idx → EReal)
    (A1 : S32x32.Idx → EReal) (A2 : S16x32.Idx → EReal) (A3 : S32x32.Idx → EReal) (B : S32x32.Idx → EReal)
    (p : Fin 4000) (r : Fin 1600000)
    (hx : ∀ k : Fin 32, x (ix2 p k) = X (ix2 r k)) (he : ∀ k : Fin 16, e (ix2 p k) = E (ix2 r k))
    (hh : ∀ k : Fin 32, h (ix2 p k) = H (ix2 r k))
    (h1 : ∀ k q : Fin 32, w1 (ix2 k q) = A1 (ix2 k q)) (h2 : ∀ (k : Fin 16) (q : Fin 32), w2 (ix2 k q) = A2 (ix2 k q))
    (h3 : ∀ k q : Fin 32, w3 (ix2 k q) = A3 (ix2 k q)) (hu : ∀ k q : Fin 32, u2 (ix2 k q) = B (ix2 k q)) (q : Fin 32) :
    k0_pay2 (F := Ideal) x e h w1 w2 w3 u2 (ix2 p q) = edgeMessage X E H A1 A2 A3 B r q := by
  rw [edge_message_apply]
  unfold edgeMessage
  refine Finset.sum_congr rfl fun k _ => ?_
  rw [hidden_on_rows x e h w1 w2 w3 X E H A1 A2 A3 p r hx he hh h1 h2 h3 k, hu]

end Cert.KernelIdeal.EdgeBlocks

end
-- ==== Proof.EdgeArrays.lean ====
/-
  The first grid's two output arrays after the grid, as whole-array functions of what it found in its inputs.

  Point `t` writes rows `4000·t … 4000·t + 3999` of each output; what it writes at row `p` is the formula at row
  `4000·t + p` of the input arrays; the row `i` is written by point `i / 4000`. So the blocks cover the outputs and
  each ends holding the formula everywhere: the new edge states in the first, the messages in the second.
-/
import proofs.«115525_j31877247271019_2_alg».proof.Proof.EdgeBlocks

set_option maxRecDepth 16384

noncomputable section

namespace Cert.KernelIdeal.EdgeArrays

open Cert.KernelIdeal Cert.KernelIdeal.Gen Cert.Formula Cert.KernelIdeal.Payload Cert.KernelIdeal.EdgeBlocks
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The new edge states, from the arrays the grid finds. -/
abbrev hiddenOf (c : Dev nD) : S1600000x32.Idx → EReal :=
  edgeHiddenArr (V c main_v18) (V c main_arg1) (V c main_v26) (V c main_v28) (V c main_v30) (V c main_v32)

/-- The messages, from the arrays the grid finds. -/
abbrev messageOf (c : Dev nD) : S1600000x32.Idx → EReal :=
  edgeMessageArr (V c main_v18) (V c main_arg1) (V c main_v26) (V c main_v28) (V c main_v30) (V c main_v32) (V c main_v34)

/-- What point `t` writes back to the first output is block `t` of the new edge states. -/
theorem flushed_hidden (c : Dev nD) (t : Fin cfg0.N) :
    (dat0 V c).flushed 7 t = ((cfg0.win 7).blk t).view.read (Elt Ideal) (hiddenOf V c) := by
  obtain ⟨-, -, -, -, -, -, -, -, -, -, -, -, -, -, e0, e1, -⟩ := block_of_point t
  have ht : t.val < 400 := lt_of_lt_of_eq t.isLt points
  show (cfg0.win 7).cut (grid0.coords t) ((dat0 V c).after 7 t) = _
  rw [after0_7]
  unfold out0_7
  rw [View.canon_unit_zero origin]
  simp only [View.ld_unit_zero (S := S4000x32) origin, View.ld_unit_zero (S := S4000x16) origin,
    View.ld_unit_zero (S := S32x32) origin, View.ld_unit_zero (S := S16x32) origin]
  funext j
  revert j
  show ∀ j : S4000x32.Idx, k0_pay1 (F := Ideal) (iblk0 V c 0 t) (iblk0 V c 1 t) (iblk0 V c 2 t) (iblk0 V c 3 t) (iblk0 V c 4 t) (iblk0 V c 5 t) j
    = hiddenOf V c (((cfg0.win 7).blk t).view.emb j)
  intro j
  obtain ⟨p, q, rfl⟩ : ∃ (p : Fin 4000) (q : Fin 32), j = ix2 p q := ⟨j 0, j 1, eq_ix2 j⟩
  have hp : p.val < 4000 := p.isLt
  refine (hidden_on_rows (iblk0 V c 0 t) (iblk0 V c 1 t) (iblk0 V c 2 t) (iblk0 V c 3 t) (iblk0 V c 4 t) (iblk0 V c 5 t)
    (V c main_v18) (V c main_arg1) (V c main_v26) (V c main_v28) (V c main_v30) (V c main_v32) p ⟨4000 * t.val + p.val, by omega⟩
    (fun k => src_block V c t p k _ rfl) (fun k => edge_block V c t p k _ rfl) (fun k => dst_block V c t p k _ rfl)
    (fun k q => w1_block V c t k q) (fun k q => w2_block V c t k q) (fun k q => w3_block V c t k q) q).trans ?_
  unfold hiddenOf edgeHiddenArr
  congr 1
  · apply Fin.ext
    show 4000 * t.val + p.val = win0_7.index t (0 : Fin 2) * 4000 + 1 * p.val
    rw [e0]; omega
  · apply Fin.ext
    show q.val = win0_7.index t (1 : Fin 2) * 32 + 1 * q.val
    rw [e1]; omega

/-- What point `t` writes back to the second output is block `t` of the messages. -/
theorem flushed_message (c : Dev nD) (t : Fin cfg0.N) :
    (dat0 V c).flushed 8 t = ((cfg0.win 8).blk t).view.read (Elt Ideal) (messageOf V c) := by
  obtain ⟨-, -, -, -, -, -, -, -, -, -, -, -, -, -, -, -, e0, e1⟩ := block_of_point t
  have ht : t.val < 400 := lt_of_lt_of_eq t.isLt points
  show (cfg0.win 8).cut (grid0.coords t) ((dat0 V c).after 8 t) = _
  rw [after0_8]
  unfold out0_8
  rw [View.canon_unit_zero origin]
  simp only [View.ld_unit_zero (S := S4000x32) origin, View.ld_unit_zero (S := S4000x16) origin,
    View.ld_unit_zero (S := S32x32) origin, View.ld_unit_zero (S := S16x32) origin]
  funext j
  revert j
  show ∀ j : S4000x32.Idx, k0_pay2 (F := Ideal) (iblk0 V c 0 t) (iblk0 V c 1 t) (iblk0 V c 2 t) (iblk0 V c 3 t) (iblk0 V c 4 t) (iblk0 V c 5 t) (iblk0 V c 6 t) j
    = messageOf V c (((cfg0.win 8).blk t).view.emb j)
  intro j
  obtain ⟨p, q, rfl⟩ : ∃ (p : Fin 4000) (q : Fin 32), j = ix2 p q := ⟨j 0, j 1, eq_ix2 j⟩
  have hp : p.val < 4000 := p.isLt
  refine (message_on_rows (iblk0 V c 0 t) (iblk0 V c 1 t) (iblk0 V c 2 t) (iblk0 V c 3 t) (iblk0 V c 4 t) (iblk0 V c 5 t) (iblk0 V c 6 t)
    (V c main_v18) (V c main_arg1) (V c main_v26) (V c main_v28) (V c main_v30) (V c main_v32) (V c main_v34) p ⟨4000 * t.val + p.val, by omega⟩
    (fun k => src_block V c t p k _ rfl) (fun k => edge_block V c t p k _ rfl) (fun k => dst_block V c t p k _ rfl)
    (fun k q => w1_block V c t k q) (fun k q => w2_block V c t k q) (fun k q => w3_block V c t k q)
    (fun k q => u2_block V c t k q) q).trans ?_
  unfold messageOf edgeMessageArr
  congr 1
  · apply Fin.ext
    show 4000 * t.val + p.val = win0_8.index t (0 : Fin 2) * 4000 + 1 * p.val
    rw [e0]; omega
  · apply Fin.ext
    show q.val = win0_8.index t (1 : Fin 2) * 32 + 1 * q.val
    rw [e1]; omega

/-- An index of the first output lies in point `t`'s block iff each coordinate lies in the block's range. -/
theorem mem_hidden_block (t : Fin cfg0.N) (i : S1600000x32.Idx) :
    i ∈ ((cfg0.win 7).blk t).view.set ↔ ∀ a : Fin 2, win0_7.index t a * S4000x32.size a ≤ (i a).val ∧ (i a).val < win0_7.index t a * S4000x32.size a + S4000x32.size a := by
  show i ∈ ((View.whole main_v35_0).slice (win0_7.rect t)).set ↔ _
  rw [View.set_slice_whole, Rect.mem_set_unit]
  exact Iff.rfl

/-- The same for the second output. -/
theorem mem_message_block (t : Fin cfg0.N) (i : S1600000x32.Idx) :
    i ∈ ((cfg0.win 8).blk t).view.set ↔ ∀ a : Fin 2, win0_8.index t a * S4000x32.size a ≤ (i a).val ∧ (i a).val < win0_8.index t a * S4000x32.size a + S4000x32.size a := by
  show i ∈ ((View.whole main_v35_1).slice (win0_8.rect t)).set ↔ _
  rw [View.set_slice_whole, Rect.mem_set_unit]
  exact Iff.rfl

/-- Row `i` of the first output is written by point `i / 4000`. -/
theorem hidden_cover (i : S1600000x32.Idx) :
    ∃ t : Fin cfg0.N, (cfg0.win 7).flush t = true ∧ i ∈ ((cfg0.win 7).blk t).view.set := by
  have hi0 : (i 0).val < 1600000 := idx2_lt0 i
  have hi1 : (i 1).val < 32 := idx2_lt1 i
  have hN : (i 0).val / 4000 < cfg0.N := by rw [points]; omega
  obtain ⟨-, -, -, -, -, -, -, -, -, -, -, -, -, -, e0, e1, -⟩ := block_of_point ⟨(i 0).val / 4000, hN⟩
  refine ⟨⟨(i 0).val / 4000, hN⟩, flush0_7 _, ?_⟩
  rw [mem_hidden_block]
  intro a
  match a with
  | ⟨0, _⟩ =>
    show win0_7.index ⟨(i 0).val / 4000, hN⟩ (0 : Fin 2) * 4000 ≤ (i 0).val ∧ (i 0).val < win0_7.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, hN⟩ (1 : Fin 2) * 32 ≤ (i 1).val ∧ (i 1).val < win0_7.index ⟨(i 0).val / 4000, hN⟩ (1 : Fin 2) * 32 + 32
    rw [e1]; omega

/-- Row `i` of the second output is written by point `i / 4000`. -/
theorem message_cover (i : S1600000x32.Idx) :
    ∃ t : Fin cfg0.N, (cfg0.win 8).flush t = true ∧ i ∈ ((cfg0.win 8).blk t).view.set := by
  have hi0 : (i 0).val < 1600000 := idx2_lt0 i
  have hi1 : (i 1).val < 32 := idx2_lt1 i
  have hN : (i 0).val / 4000 < cfg0.N := by rw [points]; omega
  obtain ⟨-, -, -, -, -, -, -, -, -, -, -, -, -, -, -, -, e0, e1⟩ := block_of_point ⟨(i 0).val / 4000, hN⟩
  refine ⟨⟨(i 0).val / 4000, hN⟩, flush0_8 _, ?_⟩
  rw [mem_message_block]
  intro a
  match a with
  | ⟨0, _⟩ =>
    show win0_8.index ⟨(i 0).val / 4000, hN⟩ (0 : Fin 2) * 4000 ≤ (i 0).val ∧ (i 0).val < win0_8.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_8.index ⟨(i 0).val / 4000, hN⟩ (1 : Fin 2) * 32 ≤ (i 1).val ∧ (i 1).val < win0_8.index ⟨(i 0).val / 4000, hN⟩ (1 : Fin 2) * 32 + 32
    rw [e1]; omega

/-- After the grid the first output holds the new edge states. -/
theorem hidden_final (c : Dev nD) : (dat0 V c).arrAt 7 cfg0.N = hiddenOf V c :=
  (dat0 V c).arrAt_eq_of_cover 7 (hiddenOf V c) (fun t _ => flushed_hidden V c t) hidden_cover

/-- After the grid the second output holds the messages. -/
theorem message_final (c : Dev nD) : (dat0 V c).arrAt 8 cfg0.N = messageOf V c :=
  (dat0 V c).arrAt_eq_of_cover 8 (messageOf V c) (fun t _ => flushed_message V c t) message_cover

end Cert.KernelIdeal.EdgeArrays

end
-- ==== Proof.NodeArrays.lean ====
/-
  The second grid, from blocks to the whole array.

  The grid has 20 points; point `t` takes rows `5000·t … 5000·t + 4999` of the node features and of the summed
  messages and the whole of the last matrix, and writes the same rows of the output: at row `p` the node formula at
  row `5000·t + p`. Row `i` is written by point `i / 5000`, so the output ends holding the new node states.
-/
import proofs.«115525_j31877247271019_2_alg».proof.Proof.Gen.KernelIdeal.Frame
import proofs.«115525_j31877247271019_2_alg».proof.Proof.Formula
import proofs.«115525_j31877247271019_2_alg».proof.Proof.Payload
import Idealize.ShloMosaic.Lib.ValueIdx
import Idealize.ShloMosaic.Lib.Pipeline.Value

set_option maxRecDepth 16384

noncomputable section

namespace Cert.KernelIdeal.NodeArrays

open Cert.KernelIdeal Cert.KernelIdeal.Gen Cert.Formula Cert.KernelIdeal.Payload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Which block each window takes at point `t`: block row `t` of the node-indexed arrays, the one block of the matrix. -/
theorem block_of_point : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem points : cfg1.N = 20 := N_1

/-- Row `p` of the feature block at point `t` is row `5000·t + p` of the features. -/
theorem feat_block (c : Dev nD) (t : Fin cfg1.N) (p : Fin 5000) (k : Fin 32) (r : Fin 100000) (hr : r.val = 5000 * t.val + p.val) :
    (iblk1 V c 0 t : Vec Ideal S5000x32 .bf16) (ix2 p k) = (V c main_v43 : S100000x32.Idx → EReal) (ix2 r k) := by
  obtain ⟨e0, e1, -⟩ := block_of_point t
  unfold iblk1
  rw [View.read_apply]
  show (V c main_v43 : S100000x32.Idx → EReal) _ = V c main_v43 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 32 + 1 * k.val = k.val; rw [e1]; omega

/-- Row `p` of the summed-message block at point `t` is row `5000·t + p` of the summed messages. -/
theorem sum_block (c : Dev nD) (t : Fin cfg1.N) (p : Fin 5000) (k : Fin 32) (r : Fin 100000) (hr : r.val = 5000 * t.val + p.val) :
    (iblk1 V c 1 t : Vec Ideal S5000x32 .f32) (ix2 p k) = (V c main_v42 : S100000x32.Idx → EReal) (ix2 r k) := by
  obtain ⟨-, -, e0, e1, -⟩ := block_of_point t
  unfold iblk1
  rw [View.read_apply]
  show (V c main_v42 : S100000x32.Idx → EReal) _ = V c main_v42 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 32 + 1 * k.val = k.val; rw [e1]; omega

/-- The block of the matrix is the matrix. -/
theorem u1_block (c : Dev nD) (t : Fin cfg1.N) (k q : Fin 32) :
    (iblk1 V c 2 t : Vec Ideal S32x32 .bf16) (ix2 k q) = (V c main_v45 : S32x32.Idx → EReal) (ix2 k q) := by
  obtain ⟨-, -, -, -, e0, e1, -⟩ := block_of_point t
  unfold iblk1
  rw [View.read_apply]
  show (V c main_v45 : S32x32.Idx → EReal) _ = V c main_v45 _
  congr 1
  funext a
  apply Fin.ext
  match a with
  | ⟨0, _⟩ => show win1_2.index t (0 : Fin 2) * 32 + 1 * k.val = k.val; rw [e0]; omega
  | ⟨1, _⟩ => show win1_2.index t (1 : Fin 2) * 32 + 1 * q.val = q.val; rw [e1]; omega

/-- The body's store on blocks that are row `r` of arrays: the node formula at row `r`. -/
theorem node_on_rows (f : Vec Ideal S5000x32 .bf16) (s : Vec Ideal S5000x32 .f32) (u1 : Vec Ideal S32x32 .bf16)
    (Fe : S100000x32.Idx → EReal) (S : S100000x32.Idx → EReal) (B : S32x32.Idx → EReal) (p : Fin 5000) (r : Fin 100000)
    (hf : ∀ k : Fin 32, f (ix2 p k) = Fe (ix2 r k)) (hs : ∀ k : Fin 32, s (ix2 p k) = S (ix2 r k))
    (hu : ∀ k q : Fin 32, u1 (ix2 k q) = B (ix2 k q)) (q : Fin 32) :
    k1_pay1 (F := Ideal) f s u1 (ix2 p q) = nodeHidden Fe S B r q := by
  rw [node_hidden_apply]
  unfold nodeHidden
  simp only [hf, hs, hu]

/-- The new node states, from the arrays the grid finds. -/
abbrev nodeOf (c : Dev nD) : S100000x32.Idx → EReal :=
  nodeHiddenArr (V c main_v43) (V c main_v42) (V c main_v45)

/-- What point `t` writes back is block `t` of the new node states. -/
theorem flushed_node (c : Dev nD) (t : Fin cfg1.N) :
    (dat1 V c).flushed 3 t = ((cfg1.win 3).blk t).view.read (Elt Ideal) (nodeOf V c) := by
  obtain ⟨-, -, -, -, -, -, e0, e1⟩ := block_of_point t
  have ht : t.val < 20 := lt_of_lt_of_eq t.isLt points
  show (cfg1.win 3).cut (grid1.coords t) ((dat1 V c).after 3 t) = _
  rw [after1_3]
  unfold out1_3
  rw [View.canon_unit_zero origin]
  simp only [View.ld_unit_zero (S := S5000x32) origin, View.ld_unit_zero (S := S32x32) origin]
  funext j
  revert j
  show ∀ j : S5000x32.Idx, k1_pay1 (F := Ideal) (iblk1 V c 0 t) (iblk1 V c 1 t) (iblk1 V c 2 t) j
    = nodeOf V c (((cfg1.win 3).blk t).view.emb j)
  intro j
  obtain ⟨p, q, rfl⟩ : ∃ (p : Fin 5000) (q : Fin 32), j = ix2 p q := ⟨j 0, j 1, eq_ix2 j⟩
  have hp : p.val < 5000 := p.isLt
  refine (node_on_rows (iblk1 V c 0 t) (iblk1 V c 1 t) (iblk1 V c 2 t) (V c main_v43) (V c main_v42) (V c main_v45) p
    ⟨5000 * t.val + p.val, by omega⟩
    (fun k => feat_block V c t p k _ rfl) (fun k => sum_block V c t p k _ rfl) (fun k q => u1_block V c t k q) q).trans ?_
  unfold nodeOf nodeHiddenArr
  congr 1
  · apply Fin.ext
    show 5000 * t.val + p.val = win1_3.index t (0 : Fin 2) * 5000 + 1 * p.val
    rw [e0]; omega
  · apply Fin.ext
    show q.val = win1_3.index t (1 : Fin 2) * 32 + 1 * q.val
    rw [e1]; omega

/-- An index of the output lies in point `t`'s block iff each coordinate lies in the block's range. -/
theorem mem_node_block (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v46).slice (win1_3.rect t)).set ↔ _
  rw [View.set_slice_whole, Rect.mem_set_unit]
  exact Iff.rfl

/-- Row `i` of the output is written by point `i / 5000`. -/
theorem node_cover (i : S100000x32.Idx) :
    ∃ t : Fin cfg1.N, (cfg1.win 3).flush t = true ∧ i ∈ ((cfg1.win 3).blk t).view.set := by
  have hi0 : (i 0).val < 100000 := idx2_lt0 i
  have hi1 : (i 1).val < 32 := idx2_lt1 i
  have hN : (i 0).val / 5000 < cfg1.N := by rw [points]; omega
  obtain ⟨-, -, -, -, -, -, e0, e1⟩ := block_of_point ⟨(i 0).val / 5000, hN⟩
  refine ⟨⟨(i 0).val / 5000, hN⟩, flush1_3 _, ?_⟩
  rw [mem_node_block]
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, hN⟩ (1 : Fin 2) * 32 ≤ (i 1).val ∧ (i 1).val < win1_3.index ⟨(i 0).val / 5000, hN⟩ (1 : Fin 2) * 32 + 32
    rw [e1]; omega

/-- After the grid the output holds the new node states. -/
theorem node_final (c : Dev nD) : (dat1 V c).arrAt 3 cfg1.N = nodeOf V c :=
  (dat1 V c).arrAt_eq_of_cover 3 (nodeOf V c) (fun t _ => flushed_node V c t) node_cover

end Cert.KernelIdeal.NodeArrays

end
-- ==== Proof.ReferenceRows.lean ====
/-
  The reference program's stages are the message-passing formulas.

  The reference computes the new edge states as three matrix products of the gathered rows with the transposed weight
  matrices, added in order and clamped below at zero; the messages as one more product; the new node states as a
  product plus the scattered messages. Read at one entry each product is a sum over the contracted coordinate, the
  left factor running along a row and the right factor down a column, which is the formula's sum term by term.
-/
import proofs.«115525_j31877247271019_2_alg».proof.Proof.Gen.ReferenceIdeal.Read
import proofs.«115525_j31877247271019_2_alg».proof.Proof.Formula
import Idealize.ShloMosaic.Lib.ValueIdx

noncomputable section

namespace Cert.ReferenceIdeal.Rows

open Cert.ReferenceIdeal Cert.ReferenceIdeal.Read Idealize.ShloMosaic Idealize.ShloMosaic.ValueIdx Cert.Formula

variable (x0 : (⟨S100000x32, .f32⟩ : BufTy).Contents (Elt Ideal)) (x1 : (⟨S1600000x16, .f32⟩ : BufTy).Contents (Elt Ideal))
  (x2 : (⟨S1600000x32, .f32⟩ : BufTy).Contents (Elt Ideal)) (x3 : (⟨S2x1600000, .i32⟩ : BufTy).Contents (Elt Ideal))
  (x4 : (⟨S32x32, .f32⟩ : BufTy).Contents (Elt Ideal)) (x5 : (⟨S32x16, .f32⟩ : BufTy).Contents (Elt Ideal))
  (x6 x7 x8 : (⟨S32x32, .f32⟩ : BufTy).Contents (Elt Ideal))

/-- The left factor's index of a product over rows of 1,600,000 × 32: row of the output entry, position `k`. -/
theorem lidx19 (r : Fin 1600000) (q k : Fin 32) : lidx_main_v19 (ix2 r q) k = ix2 r k :=
  funext fun a => Fin.ext (by match a with | ⟨0, _⟩ => rfl | ⟨1, _⟩ => rfl)
theorem ridx19 (r : Fin 1600000) (q k : Fin 32) : ridx_main_v19 (ix2 r q) k = ix2 k q :=
  funext fun a => Fin.ext (by match a with | ⟨0, _⟩ => rfl | ⟨1, _⟩ => rfl)
theorem lidx21 (r : Fin 1600000) (q : Fin 32) (k : Fin 16) : lidx_main_v21 (ix2 r q) k = ix2 r k :=
  funext fun a => Fin.ext (by match a with | ⟨0, _⟩ => rfl | ⟨1, _⟩ => rfl)
theorem ridx21 (r : Fin 1600000) (q : Fin 32) (k : Fin 16) : ridx_main_v21 (ix2 r q) k = ix2 k q :=
  funext fun a => Fin.ext (by match a with | ⟨0, _⟩ => rfl | ⟨1, _⟩ => rfl)
theorem lidx31 (r : Fin 1600000) (q k : Fin 32) : lidx_main_v31 (ix2 r q) k = ix2 r k :=
  funext fun a => Fin.ext (by match a with | ⟨0, _⟩ => rfl | ⟨1, _⟩ => rfl)
theorem ridx31 (r : Fin 1600000) (q k : Fin 32) : ridx_main_v31 (ix2 r q) k = ix2 k q :=
  funext fun a => Fin.ext (by match a with | ⟨0, _⟩ => rfl | ⟨1, _⟩ => rfl)
theorem lidx35 (r : Fin 1600000) (q k : Fin 32) : lidx_main_v35 (ix2 r q) k = ix2 r k :=
  funext fun a => Fin.ext (by match a with | ⟨0, _⟩ => rfl | ⟨1, _⟩ => rfl)
theorem ridx35 (r : Fin 1600000) (q k : Fin 32) : ridx_main_v35 (ix2 r q) k = ix2 k q :=
  funext fun a => Fin.ext (by match a with | ⟨0, _⟩ => rfl | ⟨1, _⟩ => rfl)
theorem lidx37 (r : Fin 100000) (q k : Fin 32) : lidx_main_v37 (ix2 r q) k = ix2 r k :=
  funext fun a => Fin.ext (by match a with | ⟨0, _⟩ => rfl | ⟨1, _⟩ => rfl)
theorem ridx37 (r : Fin 100000) (q k : Fin 32) : ridx_main_v37 (ix2 r q) k = ix2 k q :=
  funext fun a => Fin.ext (by match a with | ⟨0, _⟩ => rfl | ⟨1, _⟩ => rfl)

/-- The clamp's zero, read at any entry, is the real zero. -/
theorem zero_at (i : S1600000x32.Idx) : val_main_call0_v0 (F := Ideal) i = 0 := by
  rw [val_main_call0_v0_apply, val_main_call0_cst_apply]
  exact Ideal.ofBits_zero_f32

/-- The reference's new edge states at (r, q) are the formula of the gathered rows and the transposed matrices. -/
theorem hidden_at (r : Fin 1600000) (q : Fin 32) :
    val_main_v33 (F := Ideal) x0 x1 x2 x3 x4 x5 x6 (ix2 r q)
      = edgeHidden (val_main_v17 (F := Ideal) x0 x3) x1 (val_main_v29 (F := Ideal) x2 x3)
          (val_main_v18 (F := Ideal) x4) (val_main_v20 (F := Ideal) x5) (val_main_v30 (F := Ideal) x6) r q := by
  rw [val_main_v33_apply, val_main_v32_apply, val_main_v22_apply, val_main_v19_apply, val_main_v21_apply, val_main_v31_apply, zero_at]
  simp only [lidx19, ridx19, lidx21, ridx21, lidx31, ridx31]
  rfl

/-- The reference's new edge states, as a whole array. -/
theorem hidden_eq :
    val_main_v33 (F := Ideal) x0 x1 x2 x3 x4 x5 x6
      = edgeHiddenArr (val_main_v17 (F := Ideal) x0 x3) x1 (val_main_v29 (F := Ideal) x2 x3)
          (val_main_v18 (F := Ideal) x4) (val_main_v20 (F := Ideal) x5) (val_main_v30 (F := Ideal) x6) := by
  funext i
  rw [eq_ix2 i]
  exact hidden_at x0 x1 x2 x3 x4 x5 x6 _ _

/-- The reference's messages at (r, q). -/
theorem message_at (r : Fin 1600000) (q : Fin 32) :
    val_main_v35 (F := Ideal) x0 x1 x2 x3 x4 x5 x6 x8 (ix2 r q)
      = edgeMessage (val_main_v17 (F := Ideal) x0 x3) x1 (val_main_v29 (F := Ideal) x2 x3)
          (val_main_v18 (F := Ideal) x4) (val_main_v20 (F := Ideal) x5) (val_main_v30 (F := Ideal) x6)
          (val_main_v34 (F := Ideal) x8) r q := by
  rw [val_main_v35_apply]
  simp only [lidx35, ridx35, hidden_at]
  rfl

/-- The reference's messages, as a whole array. -/
theorem message_eq :
    val_main_v35 (F := Ideal) x0 x1 x2 x3 x4 x5 x6 x8
      = edgeMessageArr (val_main_v17 (F := Ideal) x0 x3) x1 (val_main_v29 (F := Ideal) x2 x3)
          (val_main_v18 (F := Ideal) x4) (val_main_v20 (F := Ideal) x5) (val_main_v30 (F := Ideal) x6)
          (val_main_v34 (F := Ideal) x8) := by
  funext i
  rw [eq_ix2 i]
  exact message_at x0 x1 x2 x3 x4 x5 x6 x8 _ _

/-- The reference's new node states at (r, q). -/
theorem node_at (r : Fin 100000) (q : Fin 32) :
    val_main_v45 (F := Ideal) x0 x1 x2 x3 x4 x5 x6 x7 x8 (ix2 r q)
      = nodeHidden x0 (val_main_v44 (F := Ideal) x0 x1 x2 x3 x4 x5 x6 x8) (val_main_v36 (F := Ideal) x7) r q := by
  rw [val_main_v45_apply, val_main_v37_apply]
  simp only [lidx37, ridx37]
  rfl

/-- The reference's new node states, as a whole array. -/
theorem node_eq :
    val_main_v45 (F := Ideal) x0 x1 x2 x3 x4 x5 x6 x7 x8
      = nodeHiddenArr x0 (val_main_v44 (F := Ideal) x0 x1 x2 x3 x4 x5 x6 x8) (val_main_v36 (F := Ideal) x7) := by
  funext i
  rw [eq_ix2 i]
  exact node_at x0 x1 x2 x3 x4 x5 x6 x7 x8 _ _

end Cert.ReferenceIdeal.Rows

end
-- ==== Proof.Results.lean ====
import proofs.«115525_j31877247271019_2_alg».proof.Proof.Gen.KernelIdeal.Frame
import proofs.«115525_j31877247271019_2_alg».proof.Proof.Gen.ReferenceIdeal.Read
import proofs.«115525_j31877247271019_2_alg».proof.Proof.Entry
import proofs.«115525_j31877247271019_2_alg».proof.Proof.EdgeArrays
import proofs.«115525_j31877247271019_2_alg».proof.Proof.NodeArrays
import proofs.«115525_j31877247271019_2_alg».proof.Proof.ReferenceRows
import Idealize.ShloMosaic.Lib.StableHlo.Run
import Idealize.ShloMosaic.Lib.ValueIdx
import Idealize.ShloMosaic.Lib.Pipeline.Value

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

open Cert.Formula Cert.KernelIdeal.Entry Cert.KernelIdeal.EdgeArrays Cert.KernelIdeal.NodeArrays

/-! The two results of the kernel program, read out of the contents at the last boundary.

    The new edge states are the first grid's first output, which nothing later writes. The messages are its second
    output; the host operations between the grids scatter them onto the nodes at both endpoints and add the two
    sums, exactly as the reference does with its own messages; the second grid turns that into the new node states.
    Each is the reference program's stage of the same name, because what the grids find in their inputs are the
    reference's stages and the grids compute the reference's formulas. -/

/-- The first grid's first output after the grid: the reference's new edge states. -/
theorem hidden_array (c : Dev nD) :
    ((dat0 (V1 m ρ) c).arrAt 7 cfg0.N : S1600000x32.Idx → EReal)
      = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (hidden_final (V1 m ρ) c).trans ?_
  show edgeHiddenArr (V1 m ρ c main_v18) (V1 m ρ c main_arg1) (V1 m ρ c main_v26) (V1 m ρ c main_v28) (V1 m ρ c main_v30) (V1 m ρ c main_v32) = _
  rw [src_rows m ρ c, edge_rows m ρ c, dst_rows m ρ c, w1_t m ρ c, w2_t m ρ c, w3_t m ρ c]
  exact (Cert.ReferenceIdeal.Rows.hidden_eq _ _ _ _ _ _ _).symm

/-- The first grid's second output after the grid: the reference's messages. -/
theorem message_array (c : Dev nD) :
    ((dat0 (V1 m ρ) c).arrAt 8 cfg0.N : S1600000x32.Idx → EReal)
      = Cert.ReferenceIdeal.Read.val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) := by
  refine (message_final (V1 m ρ) c).trans ?_
  show edgeMessageArr (V1 m ρ c main_v18) (V1 m ρ c main_arg1) (V1 m ρ c main_v26) (V1 m ρ c main_v28) (V1 m ρ c main_v30) (V1 m ρ c main_v32) (V1 m ρ c main_v34) = _
  rw [src_rows m ρ c, edge_rows m ρ c, dst_rows m ρ c, w1_t m ρ c, w2_t m ρ c, w3_t m ρ c, u2_t m ρ c]
  exact (Cert.ReferenceIdeal.Rows.message_eq _ _ _ _ _ _ _ _).symm

/-- THE FIRST RESULT: at the last boundary the first result buffer holds the reference's new edge states. -/
theorem hidden_result (c : Dev nD) :
    (W4 m ρ c (Proc.devRef .tc main_v35_0) : S1600000x32.Idx → EReal)
      = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  calc (W4 m ρ c (Proc.devRef .tc main_v35_0) : S1600000x32.Idx → EReal)
    _ = W3 m ρ c (Proc.devRef .tc main_v35_0) := W4_of_ne m ρ c main_v35_0 (by decide)
    _ = W2 m ρ c (Proc.devRef .tc main_v35_0) := by
          show StableHlo.after hostOps1 (W2 m ρ c) (Proc.devRef .tc main_v35_0) = _
          after_results_simp <;> rfl
    _ = (dat0 (V1 m ρ) c).arrAt 7 cfg0.N := W2_arr m ρ c 7
    _ = _ := hidden_array m ρ c

/-- After the first grid the messages' buffer holds the reference's messages. -/
theorem messages_between (c : Dev nD) :
    (W2 m ρ c (Proc.devRef .tc main_v35_1) : S1600000x32.Idx → EReal)
      = Cert.ReferenceIdeal.Read.val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) :=
  (W2_arr m ρ c 8).trans (message_array m ρ c)

/-- A buffer the first grid does not touch holds after it what the host operations before it left. -/
theorem first_endpoints_between (c : Dev nD) :
    (W2 m ρ c (Proc.devRef .tc main_v1) : S1600000.Idx → BitVec 32) = Cert.ReferenceIdeal.Read.val_main_v1 (F := Ideal) (m ((c.tc : Thread nD τ).loc main_arg3)) :=
  (W2_of_ne m ρ c main_v1 (by decide)).trans (by
    show StableHlo.after hostOps0 (W0 m ρ c) (Proc.devRef .tc main_v1) = _
    after_results_simp <;> rfl)

theorem second_endpoints_between (c : Dev nD) :
    (W2 m ρ c (Proc.devRef .tc main_v3) : S1600000.Idx → BitVec 32) = Cert.ReferenceIdeal.Read.val_main_v3 (F := Ideal) (m ((c.tc : Thread nD τ).loc main_arg3)) :=
  (W2_of_ne m ρ c main_v3 (by decide)).trans (by
    show StableHlo.after hostOps0 (W0 m ρ c) (Proc.devRef .tc main_v3) = _
    after_results_simp <;> rfl)

theorem features_between (c : Dev nD) :
    (W2 m ρ c (Proc.devRef .tc main_arg0) : S100000x32.Idx → EReal) = (m ((c.tc : Thread nD τ).loc main_arg0)) :=
  (W2_of_ne m ρ c main_arg0 (by decide)).trans (by
    show StableHlo.after hostOps0 (W0 m ρ c) (Proc.devRef .tc main_arg0) = _
    after_results_simp <;> rfl)

theorem u1_between (c : Dev nD) :
    (W2 m ρ c (Proc.devRef .tc main_arg7) : S32x32.Idx → EReal) = (m ((c.tc : Thread nD τ).loc main_arg7)) :=
  (W2_of_ne m ρ c main_arg7 (by decide)).trans (by
    show StableHlo.after hostOps0 (W0 m ρ c) (Proc.devRef .tc main_arg7) = _
    after_results_simp <;> rfl)

/-- What the second grid finds in its second input: the messages summed onto the nodes, as the reference sums them. -/
theorem summed_messages (c : Dev nD) :
    (V3 m ρ c main_v42 : S100000x32.Idx → EReal)
      = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) := by
  show StableHlo.after hostOps1 (W2 m ρ c) (Proc.devRef .tc main_v42) = _
  after_results_simp
  rw [first_endpoints_between m ρ c, second_endpoints_between m ρ c, messages_between m ρ c]
  rfl

/-- What the second grid finds in its first input: the node features, as launched. -/
theorem node_features (c : Dev nD) :
    (V3 m ρ c main_v43 : S100000x32.Idx → EReal) = (m ((c.tc : Thread nD τ).loc main_arg0)) := by
  show StableHlo.after hostOps1 (W2 m ρ c) (Proc.devRef .tc main_v43) = _
  after_results_simp
  rw [features_between m ρ c]
  rfl

/-- What the second grid finds in its third input: the last matrix, transposed. -/
theorem u1_t (c : Dev nD) :
    (V3 m ρ c main_v45 : S32x32.Idx → EReal) = Cert.ReferenceIdeal.Read.val_main_v36 (F := Ideal) (m ((c.tc : Thread nD τ).loc main_arg7)) := by
  show StableHlo.after hostOps1 (W2 m ρ c) (Proc.devRef .tc main_v45) = _
  after_results_simp
  rw [u1_between m ρ c]
  rfl

/-- THE SECOND RESULT: at the last boundary the second result buffer holds the reference's new node states. -/
theorem node_result (c : Dev nD) :
    (W4 m ρ c (Proc.devRef .tc main_v46) : S100000x32.Idx → EReal)
      = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 3).trans ((node_final (V3 m ρ) c).trans ?_)
  show nodeHiddenArr (V3 m ρ c main_v43) (V3 m ρ c main_v42) (V3 m ρ c main_v45) = _
  rw [node_features m ρ c, summed_messages m ρ c, u1_t m ρ c]
  exact (Cert.ReferenceIdeal.Rows.node_eq _ _ _ _ _ _ _ _ _).symm

end Cert.KernelIdeal.Results

end
-- ==== Proof.lean ====
/-
  One layer of message passing on a graph with 100,000 nodes and 1,600,000 edges: the kernel program against its
  reference, on the extended reals.

  Both programs first sum the old hidden states of the edges touching each node, gather for every edge the features of
  its first endpoint and that sum at its second endpoint, and transpose the weight matrices, by the same host
  operations. The reference then forms the new edge states as three matrix products added in order and clamped below at
  zero, the messages as one more product, scatters the messages onto the nodes and adds the node features times a last
  matrix. The kernel program does the products in two grids of row blocks: 400 blocks of 4000 edges, then 20 blocks of
  5000 nodes, with the same scatter in between.

  On the extended reals a change of float format is the identity and a product accumulated into zero is a plain sum,
  so entry by entry each block computes the reference's formula on its own rows (the sums are the same sums in the same
  order: nothing is distributed or cancelled, and the finiteness of the inputs is never used); the blocks tile the
  outputs; and the arrays the grids read are, stage by stage, the arrays the reference computes. So both programs end
  with the same new edge states and the same new node states.

  The three frame claims are the generated frames (the reference's is its run with the results dropped); the
  idealization rewrote nothing, so the fourth claim is trivial.
-/
import proofs.«115525_j31877247271019_2_alg».proof.Defs
import proofs.«115525_j31877247271019_2_alg».proof.Proof.Gen.Kernel.Frame
import proofs.«115525_j31877247271019_2_alg».proof.Proof.Gen.KernelIdeal.Frame
import proofs.«115525_j31877247271019_2_alg».proof.Proof.Gen.ReferenceIdeal
import proofs.«115525_j31877247271019_2_alg».proof.Proof.Gen.ReferenceIdeal.Run
import proofs.«115525_j31877247271019_2_alg».proof.Proof.Gen.ReferenceIdeal.Read
import proofs.«115525_j31877247271019_2_alg».proof.Proof.Gen.Pre_finite_inputs
import proofs.«115525_j31877247271019_2_alg».proof.Proof.KernelRun
import proofs.«115525_j31877247271019_2_alg».proof.Proof.Results
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the reference's new edge states and new node states of the (agreeing) arguments. -/
theorem algebraic : Cert.algebraic_KernelIdeal_ReferenceIdeal := by
  intro m ρ m' ρ' _ hagree
  refine ⟨fun c => Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Results.hidden_result m ρ c),
        (h c).2.1.trans (Cert.KernelIdeal.Results.node_result m ρ c), (h c).2.2⟩)
      (Cert.KernelIdeal.Named.run_named (F := Ideal) m ρ)
  · refine (θ_run Cert.ReferenceIdeal.defs _ _).mono (fun r h c => ?_) (Cert.ReferenceIdeal.Value.run (F := Ideal) m' ρ')
    obtain ⟨e0, e1, e2, e3, e4, e5, e6, e7, e8⟩ := hagree c
    refine ⟨(h c).1.trans ?_, (h c).2.1.trans ?_, (h c).2.2⟩
    · refine (Cert.ReferenceIdeal.Read.val_main_v33_eq _ _ _ _ _ _ _).trans ?_
      rw [e0, e1, e2, e3, e4, e5, e6]
    · refine (Cert.ReferenceIdeal.Read.val_main_v45_eq m' c).trans ?_
      rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
